-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x64 : Shape := ⟨4, ![16, 64, 64, 64]⟩
abbrev S_ : Shape := ⟨0, ![]⟩

class Facts : Prop where
  bcast_S_S16x64x64x64 : S_.BroadcastsInDim S16x64x64x64 (![] : Fin 0 → Fin S16x64x64x64.rank)
  reducesTo_S16x64x64x64_S_d0_1_2_3 : S16x64x64x64.ReducesTo [0, 1, 2, 3] S_
  h_S_ : 0 < S_.numel

variable [Facts]

def fn {F : FTy → Type} [FloatOps F] (main_arg0 : FVec F S16x64x64x64 .f32) (main_arg1 : FVec F S16x64x64x64 .f32) : IVec S_ 1 :=
  let main_v0 : FVec F S16x64x64x64 .f32 := Host.absf main_arg0
  let main_cst : FVec F S_ .f32 := constant S_ .f32 0x7F800000#32
  let main_v1 : FVec F S16x64x64x64 .f32 := broadcastInDim S16x64x64x64 ![] bcast_S_S16x64x64x64 main_cst
  let main_v2 : IVec S16x64x64x64 1 := cmpf .olt main_v0 main_v1
  let main_c : IVec S_ 1 := constantI S_ 1 1#1
  let main_v3 : IVec S_ 1 := (fun x v => Host.reduce IntOp.andi x v reducesTo_S16x64x64x64_S_d0_1_2_3 h_S_) main_v2 main_c
  let main_v4 : FVec F S16x64x64x64 .f32 := Host.absf main_arg1
  let main_cst_0 : FVec F S_ .f32 := constant S_ .f32 0x7F800000#32
  let main_v5 : FVec F S16x64x64x64 .f32 := broadcastInDim S16x64x64x64 ![] bcast_S_S16x64x64x64 main_cst_0
  let main_v6 : IVec S16x64x64x64 1 := cmpf .olt main_v4 main_v5
  let main_c_1 : IVec S_ 1 := constantI S_ 1 1#1
  let main_v7 : IVec S_ 1 := (fun x v => Host.reduce IntOp.andi x v reducesTo_S16x64x64x64_S_d0_1_2_3 h_S_) main_v6 main_c_1
  let main_v8 : IVec S_ 1 := andi main_v3 main_v7
  main_v8
-- ==== Kernel.lean ====
abbrev S16x64x64x64 : Shape := ⟨4, ![16, 64, 64, 64]⟩
abbrev S16x64x4096 : Shape := ⟨3, ![16, 64, 4096]⟩
abbrev S2x64x4096 : Shape := ⟨3, ![2, 64, 4096]⟩

abbrev nBuf : Space → Nat
  | .hbm => 8
  | .vmem => 8
  | .smem => 0
  | _ => 0

abbrev bufTy : (tb : Table) → Fin (tcTables nBuf tb) → BufTy
  | .hbm, ⟨0, _⟩ => ⟨S16x64x64x64, .f32⟩
  | .hbm, ⟨1, _⟩ => ⟨S16x64x64x64, .f32⟩
  | .hbm, ⟨2, _⟩ => ⟨S16x64x4096, .f32⟩
  | .hbm, ⟨3, _⟩ => ⟨S16x64x4096, .f32⟩
  | .hbm, ⟨4, _⟩ => ⟨S16x64x4096, .f32⟩
  | .hbm, ⟨5, _⟩ => ⟨S16x64x4096, .f32⟩
  | .hbm, ⟨6, _⟩ => ⟨S16x64x64x64, .f32⟩
  | .hbm, ⟨7, _⟩ => ⟨S16x64x64x64, .f32⟩
  | .local _ .vmem, ⟨0, _⟩ => ⟨S2x64x4096, .f32⟩
  | .local _ .vmem, ⟨1, _⟩ => ⟨S2x64x4096, .f32⟩
  | .local _ .vmem, ⟨2, _⟩ => ⟨S2x64x4096, .f32⟩
  | .local _ .vmem, ⟨3, _⟩ => ⟨S2x64x4096, .f32⟩
  | .local _ .vmem, ⟨4, _⟩ => ⟨S2x64x4096, .f32⟩
  | .local _ .vmem, ⟨5, _⟩ => ⟨S2x64x4096, .f32⟩
  | .local _ .vmem, ⟨6, _⟩ => ⟨S2x64x4096, .f32⟩
  | .local _ .vmem, ⟨7, _⟩ => ⟨S2x64x4096, .f32⟩
  | _, _ => ⟨S16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x64x64x64_S16x64x4096 : S16x64x64x64.ShapeCasts S16x64x4096
  inb_S2x64x4096_S2x64x4096_0_0_0 : ∀ a, (![0, 0, 0] : Fin 3 → Nat) a + S2x64x4096.size a ≤ S2x64x4096.size a
  h_S2x64x4096 : 0 < S2x64x4096.numel
  shapeCasts_S2x64x4096_S2x64x4096 : S2x64x4096.ShapeCasts S2x64x4096
  shapeCasts_S16x64x4096_S16x64x64x64 : S16x64x4096.ShapeCasts S16x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x4096.size a ≤ S16x64x4096.size a
  hwx0_0 : ∀ i : grid0.Coords, EltTy.bits .f32 = 32 ∨ (Rect.block (s := S16x64x4096) S2x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x64x4096.size a ≤ S16x64x4096.size a
  hwx0_1 : ∀ i : grid0.Coords, EltTy.bits .f32 = 32 ∨ (Rect.block (s := S16x64x4096) S2x64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x64x4096.size a ≤ S16x64x4096.size a
  hwx0_2 : ∀ i : grid0.Coords, EltTy.bits .f32 = 32 ∨ (Rect.block (s := S16x64x4096) S2x64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x64x4096.size a ≤ S16x64x4096.size a
  hwx0_3 : ∀ i : grid0.Coords, EltTy.bits .f32 = 32 ∨ (Rect.block (s := S16x64x4096) S2x64x4096.size (cc0_transform_3 i) (hinb0_3 i)).WholeWords (EltTy.packing .f32)

variable [Facts₀]

abbrev win0_0 : Pipeline.Window sig grid0 :=
  Pipeline.Window.ofSpec (Memref.whole main_v0) S2x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2x64x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S2x64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x64x64 : Shape := ⟨4, ![16, 64, 64, 64]⟩
abbrev S16x64x4096 : Shape := ⟨3, ![16, 64, 4096]⟩
abbrev S_ : Shape := ⟨0, ![]⟩
abbrev S16x4096 : Shape := ⟨2, ![16, 4096]⟩
abbrev S16x1x4096 : Shape := ⟨3, ![16, 1, 4096]⟩
abbrev S16x4096x4096 : Shape := ⟨3, ![16, 4096, 4096]⟩
abbrev S16x4096x1 : Shape := ⟨3, ![16, 4096, 1]⟩
abbrev S16 : Shape := ⟨1, ![16]⟩
abbrev S16x1 : Shape := ⟨2, ![16, 1]⟩

abbrev nBuf : Space → Nat
  | .hbm => 72
  | .vmem => 0
  | .smem => 0
  | _ => 0

abbrev bufTy : (tb : Table) → Fin (tcTables nBuf tb) → BufTy
  | .hbm, ⟨0, _⟩ => ⟨S16x64x64x64, .f32⟩
  | .hbm, ⟨1, _⟩ => ⟨S16x64x64x64, .f32⟩
  | .hbm, ⟨2, _⟩ => ⟨S16x64x4096, .f32⟩
  | .hbm, ⟨3, _⟩ => ⟨S16x64x4096, .f32⟩
  | .hbm, ⟨4, _⟩ => ⟨S16x64x4096, .f32⟩
  | .hbm, ⟨5, _⟩ => ⟨S_, .f32⟩
  | .hbm, ⟨6, _⟩ => ⟨S16x4096, .f32⟩
  | .hbm, ⟨7, _⟩ => ⟨S16x1x4096, .f32⟩
  | .hbm, ⟨8, _⟩ => ⟨S16x1x4096, .f32⟩
  | .hbm, ⟨9, _⟩ => ⟨S_, .f32⟩
  | .hbm, ⟨10, _⟩ => ⟨S16x1x4096, .f32⟩
  | .hbm, ⟨11, _⟩ => ⟨S16x1x4096, .f32⟩
  | .hbm, ⟨12, _⟩ => ⟨S16x64x4096, .f32⟩
  | .hbm, ⟨13, _⟩ => ⟨S16x64x4096, .f32⟩
  | .hbm, ⟨14, _⟩ => ⟨S16x64x4096, .f32⟩
  | .hbm, ⟨15, _⟩ => ⟨S_, .f32⟩
  | .hbm, ⟨16, _⟩ => ⟨S16x4096, .f32⟩
  | .hbm, ⟨17, _⟩ => ⟨S16x1x4096, .f32⟩
  | .hbm, ⟨18, _⟩ => ⟨S16x1x4096, .f32⟩
  | .hbm, ⟨19, _⟩ => ⟨S_, .f32⟩
  | .hbm, ⟨20, _⟩ => ⟨S16x1x4096, .f32⟩
  | .hbm, ⟨21, _⟩ => ⟨S16x1x4096, .f32⟩
  | .hbm, ⟨22, _⟩ => ⟨S16x64x4096, .f32⟩
  | .hbm, ⟨23, _⟩ => ⟨S16x64x4096, .f32⟩
  | .hbm, ⟨24, _⟩ => ⟨S16x4096x4096, .f32⟩
  | .hbm, ⟨25, _⟩ => ⟨S_, .f32⟩
  | .hbm, ⟨26, _⟩ => ⟨S16x4096x4096, .f32⟩
  | .hbm, ⟨27, _⟩ => ⟨S16x4096x4096, .f32⟩
  | .hbm, ⟨28, _⟩ => ⟨S_, .f32⟩
  | .hbm, ⟨29, _⟩ => ⟨S16x4096, .f32⟩
  | .hbm, ⟨30, _⟩ => ⟨S_, .f32⟩
  | .hbm, ⟨31, _⟩ => ⟨S16x4096, .f32⟩
  | .hbm, ⟨32, _⟩ => ⟨S16x4096, .f32⟩
  | .hbm, ⟨33, _⟩ => ⟨S16x4096x1, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S16x4096x1, .f32⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S_, .f32⟩
  | .hbm, ⟨45, _⟩ => ⟨S16x4096, .f32⟩
  | .hbm, ⟨46, _⟩ => ⟨S16x4096, .f32⟩
  | .hbm, ⟨47, _⟩ => ⟨S_, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S16x1, .f32⟩
  | .hbm, ⟨53, _⟩ => ⟨S16x4096, .f32⟩
  | .hbm, ⟨54, _⟩ => ⟨S16x4096, .f32⟩
  | .hbm, ⟨55, _⟩ => ⟨S16x4096, .f32⟩
  | .hbm, ⟨56, _⟩ => ⟨S_, .f32⟩
  | .hbm, ⟨57, _⟩ => ⟨S16, .f32⟩
  | .hbm, ⟨58, _⟩ => ⟨S16x1, .f32⟩
  | .hbm, ⟨59, _⟩ => ⟨S16x4096, .f32⟩
  | .hbm, ⟨60, _⟩ => ⟨S16x4096, .f32⟩
  | .hbm, ⟨61, _⟩ => ⟨S_, .f32⟩
  | .hbm, ⟨62, _⟩ => ⟨S16x4096, .f32⟩
  | .hbm, ⟨63, _⟩ => ⟨S16x4096, .f32⟩
  | .hbm, ⟨64, _⟩ => ⟨S16x1x4096, .f32⟩
  | .hbm, ⟨65, _⟩ => ⟨S16x64x4096, .f32⟩
  | .hbm, ⟨66, _⟩ => ⟨S16x64x4096, .f32⟩
  | .hbm, ⟨67, _⟩ => ⟨S16x64x64x64, .f32⟩
  | .hbm, ⟨68, _⟩ => ⟨S16x1x4096, .f32⟩
  | .hbm, ⟨69, _⟩ => ⟨S16x64x4096, .f32⟩
  | .hbm, ⟨70, _⟩ => ⟨S16x64x4096, .f32⟩
  | .hbm, ⟨71, _⟩ => ⟨S16x64x64x64, .f32⟩
  | _, _ => ⟨S16x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]

class Facts₀ : Prop where
  shapeCasts_S16x64x64x64_S16x64x4096 : S16x64x64x64.ShapeCasts S16x64x4096
  reducesTo_S16x64x4096_S16x4096_d1 : S16x64x4096.ReducesTo [1] S16x4096
  h_S_ : 0 < S_.numel
  bcast_S16x4096_S16x1x4096_0_2 : S16x4096.BroadcastsInDim S16x1x4096 (![0, 2] : Fin 2 → Fin S16x1x4096.rank)
  bcast_S_S16x1x4096 : S_.BroadcastsInDim S16x1x4096 (![] : Fin 0 → Fin S16x1x4096.rank)
  bcast_S16x1x4096_S16x64x4096_0_1_2 : S16x1x4096.BroadcastsInDim S16x64x4096 (![0, 1, 2] : Fin 3 → Fin S16x64x4096.rank)
  bcast_S_S16x4096x4096 : S_.BroadcastsInDim S16x4096x4096 (![] : Fin 0 → Fin S16x4096x4096.rank)
  reducesTo_S16x4096x4096_S16x4096_d2 : S16x4096x4096.ReducesTo [2] S16x4096
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  reducesTo_S16x4096_S16_d1 : S16x4096.ReducesTo [1] S16
  bcast_S_S16 : S_.BroadcastsInDim S16 (![] : Fin 0 → Fin S16.rank)
  bcast_S16_S16x1_0 : S16.BroadcastsInDim S16x1 (![0] : Fin 1 → Fin S16x1.rank)
  bcast_S16x1_S16x4096_0_1 : S16x1.BroadcastsInDim S16x4096 (![0, 1] : Fin 2 → Fin S16x4096.rank)
  shapeCasts_S16x64x4096_S16x64x64x64 : S16x64x4096.ShapeCasts S16x64x64x64
  dot_S16x64x4096_S16x64x4096_S16x4096x4096_1_1_2_2_0_0_wf : DotDims.WF S16x64x4096 S16x64x4096 S16x4096x4096 [1] [1] [2] [2] [0] [0]

variable [Facts₀]

def dot_S16x64x4096_S16x64x4096_S16x4096x4096_1_1_2_2_0_0 : DotDims S16x64x4096 S16x64x4096 S16x4096x4096 where
  lhsContracting := [1]
  rhsContracting := [1]
  lhsNonContracting := [2]
  rhsNonContracting := [2]
  lhsBatch := [0]
  rhsBatch := [0]
  wf := dot_S16x64x4096_S16x64x4096_S16x4096x4096_1_1_2_2_0_0_wf

class Facts : Prop extends Facts₀ where

variable [Facts]
-- ==== Proof.LibSoftmaxUnit.lean ====
/-
  Extended-real arithmetic for a row softmax that is averaged over the very axis it normalizes.

  At the exact extended reals a softmax row `e_k / Σ_j e_j` sums to one as soon as every `e_k` is a positive
  real, whatever the scores were; its mean over `n` entries is then `1/n`, a constant row; and the softmax of a
  constant row of `n` entries is `1/n` again. The lemmas below are the pieces of that argument, stated for the
  operations as they read at the exact instance: `Ideal.div`, `Ideal.exp`, `Ideal.sqrt`, `max`, finite sums with an
  initial value, and a maximum folded from `⊥`.
-/
import Idealize.ShloMosaic.PureOps.Ideal
import Idealize.ShloMosaic.PureOps.Ideal.Laws

noncomputable section

namespace Idealize.ShloMosaic.SoftmaxUnit

open Idealize.ShloMosaic

/-- `x` is a real number: neither infinity. -/
def IsReal (x : EReal) : Prop := ∃ r : ℝ, x = (r : EReal)

/-- `x` is a positive real number. -/
def IsPos (x : EReal) : Prop := ∃ r : ℝ, 0 < r ∧ x = (r : EReal)

theorem IsReal.coe (r : ℝ) : IsReal (r : EReal) := ⟨r, rfl⟩

theorem IsPos.isReal {x : EReal} (h : IsPos x) : IsReal x := by
  obtain ⟨r, -, rfl⟩ := h; exact ⟨r, rfl⟩

theorem IsReal.zero : IsReal 0 := ⟨0, by norm_cast⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A finite sum of real numbers is a real number. -/
theorem IsReal.sum {ι : Type*} (s : Finset ι) (g : ι → EReal) (h : ∀ k, IsReal (g k)) : IsReal (∑ k ∈ s, g k) := by
  choose f hf using h
  exact ⟨∑ k ∈ s, f k, by rw [← coe_sum]; exact Finset.sum_congr rfl fun k _ => hf k⟩

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

theorem IsReal.div_pos {x y : EReal} (hx : IsReal x) (hy : IsPos y) : IsReal (Ideal.div x y) := by
  obtain ⟨a, rfl⟩ := hx; obtain ⟨b, hb, rfl⟩ := hy
  exact ⟨a / b, div_coe_coe a b hb.ne'⟩

/-- A Euclidean norm floored at a positive real: `max (√s) e` is a positive real for every real `s` — below zero the
    root is the junk `⊥` and the floor is the value. -/
theorem IsPos.max_sqrt {s e : EReal} (hs : IsReal s) (he : IsPos e) : IsPos (max (Ideal.sqrt s) e) := by
  obtain ⟨r, rfl⟩ := hs; obtain ⟨q, hq, rfl⟩ := he
  rw [Ideal.sqrt_coe]
  split_ifs with h
  · exact ⟨q, hq, max_eq_right bot_le⟩
  · exact ⟨max (Real.sqrt r) q, lt_max_of_lt_right hq, EReal.coe_strictMono.monotone.map_max.symm⟩

/-- The exponential of a real number is a positive real. -/
theorem IsPos.exp {x : EReal} (hx : IsReal x) : IsPos (Ideal.exp x) := by
  obtain ⟨r, rfl⟩ := hx; exact ⟨Real.exp r, Real.exp_pos r, Ideal.exp_coe r⟩

/-- A maximum folded from `⊥` is the supremum. -/
theorem fold_max_bot {ι : Type*} (s : Finset ι) (g : ι → EReal) : s.fold max ⊥ g = s.sup g := rfl

/-- The maximum, folded from `⊥`, of a nonempty family of reals is a real. -/
theorem IsReal.fold_max {ι : Type*} (s : Finset ι) (hs : s.Nonempty) (g : ι → EReal) (h : ∀ k, IsReal (g k)) :
    IsReal (s.fold max ⊥ g) := by
  rw [fold_max_bot]
  obtain ⟨i, -, e⟩ := Finset.exists_mem_eq_sup s hs g
  rw [e]; exact h i

/-- The maximum, folded from `⊥`, of a nonempty constant family is the constant. -/
theorem fold_max_const {ι : Type*} (s : Finset ι) (hs : s.Nonempty) (c : EReal) : s.fold max ⊥ (fun _ => c) = c := by
  rw [fold_max_bot]; exact Finset.sup_const hs c

/-- A ROW OF A SOFTMAX SUMS TO ONE: positive reals `p k`, each divided by their sum, add up to `1` (both sums taken from
    the initial value `0`, as a host reduction states them). -/
theorem sum_div_total {ι : Type*} [Fintype ι] [Nonempty ι] (p : ι → EReal) (hp : ∀ k, IsPos (p k)) :
    (0 : EReal) + ∑ k, Ideal.div (p k) ((0 : EReal) + ∑ j, p j) = 1 := by
  choose f hf0 hf using hp
  have hS : 0 < ∑ j, f j := Finset.sum_pos (fun j _ => hf0 j) Finset.univ_nonempty
  have e1 : (0 : EReal) + ∑ j, p j = ((∑ j, f j : ℝ) : EReal) := by
    rw [zero_add, ← coe_sum]; exact Finset.sum_congr rfl fun k _ => hf k
  rw [e1, zero_add]
  have e2 : ∀ k, Ideal.div (p k) ((∑ j, f j : ℝ) : EReal) = ((f k / ∑ j, f j : ℝ) : EReal) := fun k => by
    rw [hf k]; exact div_coe_coe _ _ hS.ne'
  rw [Finset.sum_congr rfl fun k _ => e2 k, coe_sum, ← Finset.sum_div, div_self hS.ne']
  norm_cast

/-- THE SOFTMAX OF A CONSTANT ROW is uniform: with every score the real `c` and the row's maximum `c` too, each entry
    `exp (c - c)` divided by the sum of the `n` of them is `1/n`. -/
theorem softmax_const (n : ℕ) (hn : 0 < n) (c : ℝ) :
    Ideal.div (Ideal.exp ((c : EReal) - (c : EReal))) ((0 : EReal) + ∑ _k : Fin n, Ideal.exp ((c : EReal) - (c : EReal)))
      = ((1 / (n : ℝ) : ℝ) : EReal) := by
  have e : Ideal.exp ((c : EReal) - (c : EReal)) = ((1 : ℝ) : EReal) := by
    rw [← EReal.coe_sub, sub_self, Ideal.exp_coe, Real.exp_zero]
  rw [e, zero_add, coe_sum, Finset.sum_const, Finset.card_univ, Fintype.card_fin, nsmul_eq_mul, mul_one]
  exact div_coe_coe 1 (n : ℝ) (by positivity)

end Idealize.ShloMosaic.SoftmaxUnit

end
-- ==== Proof.Finite.lean ====
/-
  From the precondition to real numbers.

  The precondition says, of each input array, that every entry's absolute value is below `+∞`, all of these facts
  folded together by "and". An extended real whose absolute value `max x (-x)` is below `+∞` is neither infinity:
  it is a real number.
-/
import proofs.«104576_j89653147337302_2_alg».proof.Pre_finite_inputs
import proofs.«104576_j89653147337302_2_alg».proof.Proof.Gen.Pre_finite_inputs
import proofs.«104576_j89653147337302_2_alg».proof.Proof.LibSoftmaxUnit
import Idealize.ShloMosaic.Lib.ReduceAll
import Idealize.ShloMosaic.PureOps.Ideal

noncomputable section

namespace Cert.Finite

open Idealize.ShloMosaic Idealize.ShloMosaic.SoftmaxUnit

/-- The scalar shape has one index. -/
instance : Subsingleton Cert.Pre_finite_inputs.S_.Idx := ⟨fun a b => funext fun d => d.elim0⟩

/-- An extended real whose absolute value compares below the pattern of `+∞` is a real number. -/
theorem isReal_of_abs_lt (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- Under the precondition every entry of both inputs is a real number. -/
theorem real_of_pre [Cert.Pre_finite_inputs.Facts] (x0 x1 : FVec Ideal Cert.Pre_finite_inputs.S16x64x64x64 .f32)
    (h : Cert.Pre_finite_inputs.fn (F := Ideal) x0 x1 = fun _ => 1#1) :
    (∀ j, IsReal (x0 j)) ∧ (∀ j, IsReal (x1 j)) := by
  have h1 := congrFun h (fun d => d.elim0)
  dsimp only [Cert.Pre_finite_inputs.fn] at h1
  obtain ⟨ha, hb⟩ := IntOp.andi_eq_one.mp h1
  refine ⟨fun j => ?_, fun j => ?_⟩
  · exact isReal_of_abs_lt (x0 j) (Host.reduce_andi_all _ _ _ _ _ ha j)
  · exact isReal_of_abs_lt (x1 j) (Host.reduce_andi_all _ _ _ _ _ hb j)

end Cert.Finite

end
-- ==== Proof.KernelBlocks.lean ====
/-
  The kernel's two output arrays, read whole.

  The region's grid has eight points; point `t` stages rows `2t, 2t+1` (all 64 channels, all 4096 positions) of each
  reshaped input [16, 64, 4096], multiplies the block entry by entry by the literal factor, and writes it back to the
  same rows of the matching output. The blocks of one output are disjoint and fill it, and every written entry is the
  input's entry at the same index times the factor: after the run each output array is its input array scaled.
-/
import proofs.«104576_j89653147337302_2_alg».proof.Proof.Gen.KernelIdeal.Frame
import Idealize.ShloMosaic.Lib.Pipeline.Value
import Idealize.ShloMosaic.Lib.ValueIdx

set_option maxRecDepth 16384

noncomputable section

namespace Cert.KernelIdeal.Scaled

open Cert.KernelIdeal Cert.KernelIdeal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

theorem hz : (![0, 0, 0] : Fin 3 → Nat) = fun _ => 0 := funext fun a => by fin_cases a <;> rfl

/-- An array [16, 64, 4096] scaled entry by entry by the kernel's factor. -/
abbrev scaled (a : S16x64x4096.Idx → Elt F .f32) : S16x64x4096.Idx → Elt F .f32 :=
  fun i => FloatOps.mulf (a i) (Scalar.ofBits .f32 0x3F800800#32)

/-- The body's two payloads are their loaded block times the factor. -/
theorem pay1_eq (x : Vec F S2x64x4096 .f32) :
    k0_pay1 x = fun j => FloatOps.mulf (x j) (Scalar.ofBits .f32 0x3F800800#32) := by
  unfold k0_pay1
  rw [shapeCast_self]
  rfl
theorem pay2_eq (x : Vec F S2x64x4096 .f32) :
    k0_pay2 x = fun j => FloatOps.mulf (x j) (Scalar.ofBits .f32 0x3F800800#32) := by
  unfold k0_pay2
  rw [shapeCast_self]
  rfl

/-! ## The first output -/

/-- The index maps, decided over the grid: the input's block sits where the output's does, and the output's block
    index is (t, 0, 0). -/
theorem idx_facts2 : ∀ t : Fin cfg0.N, win0_0.index t (0 : Fin 3) = win0_2.index t (0 : Fin 3)
    ∧ win0_0.index t (1 : Fin 3) = win0_2.index t (1 : Fin 3)
    ∧ win0_0.index t (2 : Fin 3) = win0_2.index t (2 : Fin 3) :=
  (by decide +kernel : ∀ t : Fin grid0.N, _)

/-- Every pair of rows is some point's block. -/
theorem idx_onto2 : ∀ q0 : Fin 8, ∃ t : Fin cfg0.N, win0_2.index t = ![q0.val, 0, 0] :=
  (by decide +kernel : ∀ q0 : Fin 8, ∃ t : Fin grid0.N, win0_2.index t = ![q0.val, 0, 0])

/-- What point `t` writes back is block `t` of the scaled input. -/
theorem flushed2_eq (c : Dev nD) (t : Fin cfg0.N) :
    (dats m 0 c).flushed 2 t = ((cfg0.win 2).blk t).view.read (Elt F) (scaled (V m c main_v0)) := by
  show (cfg0.win 2).cut (grid0.coords t) ((dats m 0 c).after 2 t) = _
  rw [after0_2]
  unfold out0_2
  rw [View.canon_unit_zero hz]
  simp only [View.ld_unit_zero (S := S2x64x4096) hz]
  rw [pay1_eq]
  obtain ⟨e0, e1, e2⟩ := idx_facts2 t
  funext j
  show FloatOps.mulf (V m c main_v0 (((cfg0.win 0).blk t).view.emb j)) (Scalar.ofBits .f32 0x3F800800#32)
    = FloatOps.mulf (V m c main_v0 (((cfg0.win 2).blk t).view.emb j)) (Scalar.ofBits .f32 0x3F800800#32)
  have h0 : ((cfg0.win 0).blk t).view.emb j = ((cfg0.win 2).blk t).view.emb j := by
    funext a; apply Fin.ext
    match a with
    | ⟨0, _⟩ => show win0_0.index t (0 : Fin 3) * 2 + 1 * (j 0).val = win0_2.index t (0 : Fin 3) * 2 + 1 * (j 0).val; omega
    | ⟨1, _⟩ => show win0_0.index t (1 : Fin 3) * 64 + 1 * (j 1).val = win0_2.index t (1 : Fin 3) * 64 + 1 * (j 1).val; omega
    | ⟨2, _⟩ => show win0_0.index t (2 : Fin 3) * 4096 + 1 * (j 2).val = win0_2.index t (2 : Fin 3) * 4096 + 1 * (j 2).val; omega
  rw [h0]

/-- An index is in point `t`'s block iff each coordinate is in the block's range on its axis. -/
theorem mem_blk2 (t : Fin cfg0.N) (i : S16x64x4096.Idx) :
    i ∈ ((cfg0.win 2).blk t).view.set ↔ ∀ a : Fin 3, win0_2.index t a * S2x64x4096.size a ≤ (i a).val ∧ (i a).val < win0_2.index t a * S2x64x4096.size a + S2x64x4096.size a := by
  show i ∈ ((View.whole main_v2_0).slice (win0_2.rect t)).set ↔ _
  rw [View.set_slice_whole, Rect.mem_set_unit]
  exact Iff.rfl

/-- The blocks fill the array: index `i` lies in the block of the point that holds rows `2·(i₀/2), 2·(i₀/2)+1`. -/
theorem cover2 (i : S16x64x4096.Idx) : ∃ t : Fin cfg0.N, (cfg0.win 2).flush t = true ∧ i ∈ ((cfg0.win 2).blk t).view.set := by
  have hi0 : (i 0).val < 16 := (i 0).isLt
  have hi1 : (i 1).val < 64 := (i 1).isLt
  have hi2 : (i 2).val < 4096 := (i 2).isLt
  obtain ⟨t, ht⟩ := idx_onto2 ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 64 ≤ (i 1).val ∧ (i 1).val < win0_2.index t (1 : Fin 3) * 64 + 64; omega
  | ⟨2, _⟩ => show win0_2.index t (2 : Fin 3) * 4096 ≤ (i 2).val ∧ (i 2).val < win0_2.index t (2 : Fin 3) * 4096 + 4096; omega

/-- THE FIRST OUTPUT ARRAY after the run is the first reshaped input, scaled. -/
theorem final2 (c : Dev nD) : (dats m 0 c).arrAt 2 cfg0.N = scaled (V m c main_v0) :=
  (dats m 0 c).arrAt_eq_of_cover 2 (scaled (V m c main_v0)) (fun t _ => flushed2_eq m c t) cover2

/-! ## The second output -/

theorem idx_facts3 : ∀ t : Fin cfg0.N, win0_1.index t (0 : Fin 3) = win0_3.index t (0 : Fin 3)
    ∧ win0_1.index t (1 : Fin 3) = win0_3.index t (1 : Fin 3)
    ∧ win0_1.index t (2 : Fin 3) = win0_3.index t (2 : Fin 3) :=
  (by decide +kernel : ∀ t : Fin grid0.N, _)

theorem idx_onto3 : ∀ q0 : Fin 8, ∃ t : Fin cfg0.N, win0_3.index t = ![q0.val, 0, 0] :=
  (by decide +kernel : ∀ q0 : Fin 8, ∃ t : Fin grid0.N, win0_3.index t = ![q0.val, 0, 0])

theorem flushed3_eq (c : Dev nD) (t : Fin cfg0.N) :
    (dats m 0 c).flushed 3 t = ((cfg0.win 3).blk t).view.read (Elt F) (scaled (V m c main_v1)) := by
  show (cfg0.win 3).cut (grid0.coords t) ((dats m 0 c).after 3 t) = _
  rw [after0_3]
  unfold out0_3
  rw [View.canon_unit_zero hz]
  simp only [View.ld_unit_zero (S := S2x64x4096) hz]
  rw [pay2_eq]
  obtain ⟨e0, e1, e2⟩ := idx_facts3 t
  funext j
  show FloatOps.mulf (V m c main_v1 (((cfg0.win 1).blk t).view.emb j)) (Scalar.ofBits .f32 0x3F800800#32)
    = FloatOps.mulf (V m c main_v1 (((cfg0.win 3).blk t).view.emb j)) (Scalar.ofBits .f32 0x3F800800#32)
  have h0 : ((cfg0.win 1).blk t).view.emb j = ((cfg0.win 3).blk t).view.emb j := by
    funext a; apply Fin.ext
    match a with
    | ⟨0, _⟩ => show win0_1.index t (0 : Fin 3) * 2 + 1 * (j 0).val = win0_3.index t (0 : Fin 3) * 2 + 1 * (j 0).val; omega
    | ⟨1, _⟩ => show win0_1.index t (1 : Fin 3) * 64 + 1 * (j 1).val = win0_3.index t (1 : Fin 3) * 64 + 1 * (j 1).val; omega
    | ⟨2, _⟩ => show win0_1.index t (2 : Fin 3) * 4096 + 1 * (j 2).val = win0_3.index t (2 : Fin 3) * 4096 + 1 * (j 2).val; omega
  rw [h0]

theorem mem_blk3 (t : Fin cfg0.N) (i : S16x64x4096.Idx) :
    i ∈ ((cfg0.win 3).blk t).view.set ↔ ∀ a : Fin 3, win0_3.index t a * S2x64x4096.size a ≤ (i a).val ∧ (i a).val < win0_3.index t a * S2x64x4096.size a + S2x64x4096.size a := by
  show i ∈ ((View.whole main_v2_1).slice (win0_3.rect t)).set ↔ _
  rw [View.set_slice_whole, Rect.mem_set_unit]
  exact Iff.rfl

theorem cover3 (i : S16x64x4096.Idx) : ∃ t : Fin cfg0.N, (cfg0.win 3).flush t = true ∧ i ∈ ((cfg0.win 3).blk t).view.set := by
  have hi0 : (i 0).val < 16 := (i 0).isLt
  have hi1 : (i 1).val < 64 := (i 1).isLt
  have hi2 : (i 2).val < 4096 := (i 2).isLt
  obtain ⟨t, ht⟩ := idx_onto3 ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 64 ≤ (i 1).val ∧ (i 1).val < win0_3.index t (1 : Fin 3) * 64 + 64; omega
  | ⟨2, _⟩ => show win0_3.index t (2 : Fin 3) * 4096 ≤ (i 2).val ∧ (i 2).val < win0_3.index t (2 : Fin 3) * 4096 + 4096; omega

/-- THE SECOND OUTPUT ARRAY after the run is the second reshaped input, scaled. -/
theorem final3 (c : Dev nD) : (dats m 0 c).arrAt 3 cfg0.N = scaled (V m c main_v1) :=
  (dats m 0 c).arrAt_eq_of_cover 3 (scaled (V m c main_v1)) (fun t _ => flushed3_eq m c t) cover3

end Cert.KernelIdeal.Scaled

end
-- ==== Proof.KernelTail.lean ====
/-
  The kernel's results: the outputs of the region reshaped back.

  Before the region each input [16, 64, 64, 64] is reshaped to [16, 64, 4096]; after it each output array is reshaped
  back. With the output arrays read whole (the scaled reshaped inputs) each result of the program is its input reshaped,
  scaled by the factor, and reshaped back.
-/
import proofs.«104576_j89653147337302_2_alg».proof.Proof.KernelBlocks
import Idealize.ShloMosaic.Lib.StableHlo.Run
import Idealize.ShloMosaic.Lib.Pipeline.FrameSuffix

set_option maxRecDepth 16384

noncomputable section

namespace Cert.KernelIdeal.Scaled

open Cert.KernelIdeal Cert.KernelIdeal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

/-- The region finds the first reshaped input where the reshape before it put it. -/
theorem V_main_v0 (c : Dev nD) : (V m c main_v0 : S16x64x4096.Idx → Elt F .f32)
    = shapeCast S16x64x4096 (m ((c : Thread nD τ).loc main_arg0)) shapeCasts_S16x64x64x64_S16x64x4096 := by
  show StableHlo.after hostOps0 (fun b => m (c, b)) (Proc.devRef .tc main_v0) = _
  after_results
  rfl

theorem V_main_v1 (c : Dev nD) : (V m c main_v1 : S16x64x4096.Idx → Elt F .f32)
    = shapeCast S16x64x4096 (m ((c : Thread nD τ).loc main_arg1)) shapeCasts_S16x64x64x64_S16x64x4096 := by
  show StableHlo.after hostOps0 (fun b => m (c, b)) (Proc.devRef .tc main_v1) = _
  after_results
  rfl

/-- An array reshaped to [16, 64, 4096], scaled by the factor, reshaped back to [16, 64, 64, 64]. -/
def scaledBack (x : S16x64x64x64.Idx → Elt F .f32) : S16x64x64x64.Idx → Elt F .f32 :=
  shapeCast S16x64x64x64 (scaled (shapeCast S16x64x4096 x shapeCasts_S16x64x64x64_S16x64x4096)) shapeCasts_S16x64x4096_S16x64x64x64

/-- The results after the region's tail: each output array, read whole, reshaped back. -/
theorem tail_v3 (c : Dev nD) :
    Pipeline.afterTail₀ cfgs (dats m) 0 (V0 m) [hostOps1] c main_v3 = scaledBack (m ((c : Thread nD τ).loc main_arg0)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2_0)
      = scaled (shapeCast S16x64x4096 (m ((c : Thread nD τ).loc main_arg0)) shapeCasts_S16x64x64x64_S16x64x4096) :=
    (Pipeline.withArrays_arr spec0 launch0.win.arr_inj c _ _ 2).trans ((final2 m c).trans (congrArg scaled (V_main_v0 m c)))
  rw [e]
  rfl

theorem tail_v4 (c : Dev nD) :
    Pipeline.afterTail₀ cfgs (dats m) 0 (V0 m) [hostOps1] c main_v4 = scaledBack (m ((c : Thread nD τ).loc main_arg1)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2_1)
      = scaled (shapeCast S16x64x4096 (m ((c : Thread nD τ).loc main_arg1)) shapeCasts_S16x64x64x64_S16x64x4096) :=
    (Pipeline.withArrays_arr spec0 launch0.win.arr_inj c _ _ 3).trans ((final3 m c).trans (congrArg scaled (V_main_v1 m c)))
  rw [e]
  rfl

/-- THE KERNEL'S RUN, READ: every weakly fair execution terminates with each result at its input reshaped, scaled and
    reshaped back, and the inputs unchanged. -/
theorem run : θ_run defs (onTc (τ := τ) (main (F := F))) ⟨m, fun _ => 0, ρ⟩ fun r => ∀ c : Dev nD,
      r.2.mem ((c.tc : Thread nD τ).loc main_v3) = scaledBack (m ((c.tc : Thread nD τ).loc main_arg0))
      ∧ r.2.mem ((c.tc : Thread nD τ).loc main_v4) = scaledBack (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_v3 m c),
       ((h c).2 main_v4 (Pipeline.mem_restRefs_of main_v4 (by decide) (by decide))).trans (tail_v4 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Scaled

end
-- ==== Proof.Consts.lean ====
/-
  The float constants the two programs spell, as the extended reals their bit patterns denote at the exact instance.

  The reference spells `1e-12` (the floor under a Euclidean norm; only its being a positive real matters), `50` (the
  similarity's scale; only its being real matters), `-∞` (where a running maximum starts), `4096` (the length of the
  averaged axis) and `1`; the kernel spells the single factor `1 + 1/4096`, which is exactly representable:
  `1 + 2^-12`.
-/
import Idealize.ShloMosaic.PureOps.Ideal
import Idealize.ShloMosaic.PureOps.Ideal.Laws

noncomputable section

namespace Cert.Consts

open Idealize.ShloMosaic

/-- `0xFF800000` is `-∞`, the bottom of the extended reals. -/
theorem ofBits_neg_inf : Ideal.ofBits .f32 0xFF800000#32 = ⊥ := by
  simp [Ideal.ofBits, Ideal.ieee]

/-- `4096.0` denotes the real `4096`. -/
theorem ofBits_4096 : Ideal.ofBits .f32 0x45800000#32 = ((4096 : ℝ) : EReal) := by
  simp [Ideal.ofBits, Ideal.ieee, -EReal.coe_mul]; norm_num

/-- `50.0` denotes the real `50`. -/
theorem ofBits_50 : Ideal.ofBits .f32 0x42480000#32 = ((50 : ℝ) : EReal) := by
  simp [Ideal.ofBits, Ideal.ieee, -EReal.coe_mul]; norm_num

/-- `1.0` denotes the real `1`. -/
theorem ofBits_one : Ideal.ofBits .f32 0x3F800000#32 = ((1 : ℝ) : EReal) := by
  simp [Ideal.ofBits, Ideal.ieee, -EReal.coe_mul]; norm_num

/-- The kernel's factor `1.00024414` is exactly `1 + 1/4096 = 4097/4096`. -/
theorem ofBits_factor : Ideal.ofBits .f32 0x3F800800#32 = ((4097 / 4096 : ℝ) : EReal) := by
  simp [Ideal.ofBits, Ideal.ieee, -EReal.coe_mul]; norm_num

/-- The norm's floor (`1e-12` rounded to f32) is a positive real: `9223372 · 2^-63`. -/
theorem ofBits_floor : Ideal.ofBits .f32 0x2B8CBCCC#32 = ((9223372 * (2 : ℝ) ^ (-63 : ℤ) : ℝ) : EReal) := by
  simp [Ideal.ofBits, Ideal.ieee, -EReal.coe_mul]

theorem floor_pos : (0 : ℝ) < 9223372 * (2 : ℝ) ^ (-63 : ℤ) := by positivity

end Cert.Consts

end
-- ==== Proof.RefNorm.lean ====
/-
  The reference's normalized features are real numbers.

  With both inputs [16, 64, 64, 64] read as [b, c, n] (n = 64·64), the reference divides every entry `x[b, c, n]` by
  `max (√(Σ_c x[b, c, n]²), 1e-12)`. For finite inputs the sum of squares is a real number, so its root is a real
  or (were the sum negative) the junk value `⊥`; either way the maximum with the positive floor is a positive real,
  and the quotient of a real by a positive real is a real. Nothing here depends on what the quotient is.
-/
import proofs.«104576_j89653147337302_2_alg».proof.Proof.Gen.ReferenceIdeal.Read
import proofs.«104576_j89653147337302_2_alg».proof.Proof.LibSoftmaxUnit
import proofs.«104576_j89653147337302_2_alg».proof.Proof.Consts

noncomputable section

namespace Cert.ReferenceIdeal.Weight

open Cert.ReferenceIdeal Cert.ReferenceIdeal.Gen Cert.ReferenceIdeal.Read Idealize.ShloMosaic Idealize.ShloMosaic.SoftmaxUnit

/-- An input array of the reference at the exact instance. -/
abbrev Arr : Type := (⟨S16x64x64x64, .f32⟩ : BufTy).Contents (Elt Ideal)

variable (x0 x1 : Arr)

/-! ## The first input -/

theorem real_v0 (h0 : ∀ j, IsReal (x0 j)) (i : S16x64x4096.Idx) : IsReal (val_main_v0 (F := Ideal) x0 i) := by
  rw [val_main_v0_apply]; exact h0 _

/-- The sum over the channels of the squares is a real. -/
theorem real_v3 (h0 : ∀ j, IsReal (x0 j)) (i : S16x4096.Idx) : IsReal (val_main_v3 (F := Ideal) x0 i) := by
  rw [val_main_v3_apply, val_main_cst_apply, Ideal.ofBits_def, Ideal.ofBits_zero_f32]
  refine IsReal.zero.add (IsReal.sum _ _ fun k => ?_)
  rw [val_main_v2_apply, Ideal.mulf_def]
  exact (real_v0 x0 h0 _).mul (real_v0 x0 h0 _)

/-- The floored norm is a positive real. -/
theorem pos_v7 (h0 : ∀ j, IsReal (x0 j)) (i : S16x1x4096.Idx) : IsPos (val_main_v7 (F := Ideal) x0 i) := by
  rw [val_main_v7_apply, Ideal.maximumf_def, val_main_v5_apply, Ideal.hostUnary_sqrt_def, val_main_v4_apply,
    val_main_v6_apply, val_main_cst_0_apply, Ideal.ofBits_def, Cert.Consts.ofBits_floor]
  exact IsPos.max_sqrt (real_v3 x0 h0 _) ⟨_, Cert.Consts.floor_pos, rfl⟩

/-- The normalized first input is real. -/
theorem real_v9 (h0 : ∀ j, IsReal (x0 j)) (i : S16x64x4096.Idx) : IsReal (val_main_v9 (F := Ideal) x0 i) := by
  rw [val_main_v9_apply, Ideal.hostDivf_def, val_main_v8_apply]
  exact (real_v0 x0 h0 _).div_pos (pos_v7 x0 h0 _)

/-! ## The second input -/

theorem real_v1 (h1 : ∀ j, IsReal (x1 j)) (i : S16x64x4096.Idx) : IsReal (val_main_v1 (F := Ideal) x1 i) := by
  rw [val_main_v1_apply]; exact h1 _

theorem real_v11 (h1 : ∀ j, IsReal (x1 j)) (i : S16x4096.Idx) : IsReal (val_main_v11 (F := Ideal) x1 i) := by
  rw [val_main_v11_apply, val_main_cst_1_apply, Ideal.ofBits_def, Ideal.ofBits_zero_f32]
  refine IsReal.zero.add (IsReal.sum _ _ fun k => ?_)
  rw [val_main_v10_apply, Ideal.mulf_def]
  exact (real_v1 x1 h1 _).mul (real_v1 x1 h1 _)

theorem pos_v15 (h1 : ∀ j, IsReal (x1 j)) (i : S16x1x4096.Idx) : IsPos (val_main_v15 (F := Ideal) x1 i) := by
  rw [val_main_v15_apply, Ideal.maximumf_def, val_main_v13_apply, Ideal.hostUnary_sqrt_def, val_main_v12_apply,
    val_main_v14_apply, val_main_cst_2_apply, Ideal.ofBits_def, Cert.Consts.ofBits_floor]
  exact IsPos.max_sqrt (real_v11 x1 h1 _) ⟨_, Cert.Consts.floor_pos, rfl⟩

/-- The normalized second input is real. -/
theorem real_v17 (h1 : ∀ j, IsReal (x1 j)) (i : S16x64x4096.Idx) : IsReal (val_main_v17 (F := Ideal) x1 i) := by
  rw [val_main_v17_apply, Ideal.hostDivf_def, val_main_v16_apply]
  exact (real_v1 x1 h1 _).div_pos (pos_v15 x1 h1 _)

end Cert.ReferenceIdeal.Weight

end
-- ==== Proof.RefScores.lean ====
/-
  The reference's shifted, exponentiated similarity scores are positive reals.

  The similarity `sim[b, n, m] = Σ_c v̂[b, c, n] · t̂[b, c, m]` of the normalized inputs is a finite sum of products of
  reals, hence real; so is `50 · sim`. The row maximum over `m`, folded from `-∞` over 4096 entries, is one of the
  entries, hence real. The difference of two reals is real, and the exponential of a real is a positive real. Which
  numbers these are plays no part.
-/
import proofs.«104576_j89653147337302_2_alg».proof.Proof.Gen.ReferenceIdeal.Read
import proofs.«104576_j89653147337302_2_alg».proof.Proof.LibSoftmaxUnit
import proofs.«104576_j89653147337302_2_alg».proof.Proof.Consts
import proofs.«104576_j89653147337302_2_alg».proof.Proof.RefNorm
import Idealize.ShloMosaic.PureOps.Reduce

noncomputable section

namespace Cert.ReferenceIdeal.Weight

open Cert.ReferenceIdeal Cert.ReferenceIdeal.Gen Cert.ReferenceIdeal.Read Idealize.ShloMosaic Idealize.ShloMosaic.SoftmaxUnit

variable (x0 x1 : Arr)

/-- The similarity is real. -/
theorem real_v18 (h0 : ∀ j, IsReal (x0 j)) (h1 : ∀ j, IsReal (x1 j)) (i : S16x4096x4096.Idx) : IsReal (val_main_v18 (F := Ideal) x0 x1 i) := by
  rw [val_main_v18_apply]
  exact IsReal.sum _ _ fun k => (real_v9 x0 h0 _).mul (real_v17 x1 h1 _)

/-- The scaled similarity is real. -/
theorem real_v20 (h0 : ∀ j, IsReal (x0 j)) (h1 : ∀ j, IsReal (x1 j)) (i : S16x4096x4096.Idx) : IsReal (val_main_v20 (F := Ideal) x0 x1 i) := by
  rw [val_main_v20_apply, Ideal.mulf_def, val_main_v19_apply, val_main_cst_3_apply, Ideal.ofBits_def, Cert.Consts.ofBits_50]
  exact (real_v18 x0 x1 h0 h1 _).mul (IsReal.coe 50)

/-- The row maximum of the scaled similarity, folded from `-∞` over the 4096 columns, is real. -/
theorem real_v21 (h0 : ∀ j, IsReal (x0 j)) (h1 : ∀ j, IsReal (x1 j)) (i : S16x4096.Idx) : IsReal (val_main_v21 (F := Ideal) x0 x1 i) := by
  have hR : S16x4096x4096.Reduces [2] S16x4096 := by decide
  unfold val_main_v21
  rw [Host.reduce_eq_fold_single FloatOps.maximumf _ _ reducesTo_S16x4096x4096_S16x4096_d2 hR h_S_, val_main_cst_4_apply,
    Ideal.ofBits_def, Cert.Consts.ofBits_neg_inf]
  exact IsReal.fold_max _ ⟨⟨0, by decide⟩, Finset.mem_univ _⟩ _ fun k => real_v20 x0 x1 h0 h1 _

/-- So is its maximum with `-∞`. -/
theorem real_v23 (h0 : ∀ j, IsReal (x0 j)) (h1 : ∀ j, IsReal (x1 j)) (i : S16x4096.Idx) : IsReal (val_main_v23 (F := Ideal) x0 x1 i) := by
  rw [val_main_v23_apply, Ideal.maximumf_def, val_main_v22_apply, val_main_cst_5_apply, Ideal.ofBits_def,
    Cert.Consts.ofBits_neg_inf, max_bot_left]
  exact real_v21 x0 x1 h0 h1 _

/-- The shifted score is real. -/
theorem real_v26 (h0 : ∀ j, IsReal (x0 j)) (h1 : ∀ j, IsReal (x1 j)) (i : S16x4096x4096.Idx) : IsReal (val_main_v26 (F := Ideal) x0 x1 i) := by
  rw [val_main_v26_apply, Ideal.subf_def, val_main_v25_apply, val_main_v24_apply]
  exact (real_v20 x0 x1 h0 h1 _).sub (real_v23 x0 x1 h0 h1 _)

/-- Its exponential is a positive real. -/
theorem pos_v27 (h0 : ∀ j, IsReal (x0 j)) (h1 : ∀ j, IsReal (x1 j)) (i : S16x4096x4096.Idx) : IsPos (val_main_v27 (F := Ideal) x0 x1 i) := by
  rw [val_main_v27_apply, Ideal.hostUnary_exp_def]
  exact IsPos.exp (real_v26 x0 x1 h0 h1 _)

end Cert.ReferenceIdeal.Weight

end
-- ==== Proof.RefWeight.lean ====
/-
  The reference's weight is the constant `1 + 1/4096`.

  Row `(b, n)` of the first softmax is `e_m / Σ_m' e_m'` with every `e_m` a positive real, so it sums to one; its mean
  over the 4096 columns is `1/4096` for every `(b, n)`. The second softmax runs over `n` on that constant row: its
  maximum is `1/4096`, every shifted score is `0`, every exponential `1`, their sum `4096`, every entry `1/4096`.
  Adding one gives `4097/4096`, which is the value of the kernel's literal factor.
-/
import proofs.«104576_j89653147337302_2_alg».proof.Proof.Gen.ReferenceIdeal.Read
import proofs.«104576_j89653147337302_2_alg».proof.Proof.LibSoftmaxUnit
import proofs.«104576_j89653147337302_2_alg».proof.Proof.Consts
import proofs.«104576_j89653147337302_2_alg».proof.Proof.RefScores

noncomputable section

namespace Cert.ReferenceIdeal.Weight

open Cert.ReferenceIdeal Cert.ReferenceIdeal.Gen Cert.ReferenceIdeal.Read Idealize.ShloMosaic Idealize.ShloMosaic.SoftmaxUnit

variable (x0 x1 : Arr)

/-- The normalizer a row's entry is divided by is the row's own. -/
theorem row_of_col (i : S16x4096.Idx) (k : Fin 4096) : idx_main_v29 (idx_main_v30 (idx_main_v32 i k)) = i :=
  funext fun a => Fin.ext (by match a with | ⟨0, _⟩ => rfl | ⟨1, _⟩ => rfl)

/-- A row of the first softmax sums to one. -/
theorem v32_eq (h0 : ∀ j, IsReal (x0 j)) (h1 : ∀ j, IsReal (x1 j)) (i : S16x4096.Idx) : val_main_v32 (F := Ideal) x0 x1 i = 1 := by
  haveI : Nonempty (Fin 4096) := ⟨0⟩
  rw [val_main_v32_apply, val_main_cst_7_apply, Ideal.ofBits_def, Ideal.ofBits_zero_f32]
  have e : ∀ k : Fin 4096, val_main_v31 (F := Ideal) x0 x1 (idx_main_v32 i k)
      = Ideal.div (val_main_v27 (F := Ideal) x0 x1 (idx_main_v28 i k))
          ((0 : EReal) + ∑ j : Fin 4096, val_main_v27 (F := Ideal) x0 x1 (idx_main_v28 i j)) := by
    intro k
    rw [val_main_v31_apply, Ideal.hostDivf_def, val_main_v30_apply, val_main_v29_apply, row_of_col i k, val_main_v28_apply,
      val_main_cst_6_apply, Ideal.ofBits_def, Ideal.ofBits_zero_f32]
  rw [Finset.sum_congr rfl fun k _ => e k]
  exact sum_div_total _ fun k => pos_v27 x0 x1 h0 h1 _

/-- The mean of a row of the first softmax is `1/4096`. -/
theorem v34_eq (h0 : ∀ j, IsReal (x0 j)) (h1 : ∀ j, IsReal (x1 j)) (i : S16x4096.Idx) : val_main_v34 (F := Ideal) x0 x1 i = ((1 / 4096 : ℝ) : EReal) := by
  rw [val_main_v34_apply, Ideal.hostDivf_def, v32_eq x0 x1 h0 h1, val_main_v33_apply, val_main_cst_8_apply, Ideal.ofBits_def,
    Cert.Consts.ofBits_4096, ← EReal.coe_one]
  exact div_coe_coe 1 4096 (by norm_num)

/-- The maximum of the constant row, folded from `-∞`, is the constant. -/
theorem v35_eq (h0 : ∀ j, IsReal (x0 j)) (h1 : ∀ j, IsReal (x1 j)) (i : S16.Idx) : val_main_v35 (F := Ideal) x0 x1 i = ((1 / 4096 : ℝ) : EReal) := by
  have hR : S16x4096.Reduces [1] S16 := by decide
  unfold val_main_v35
  rw [Host.reduce_eq_fold_single FloatOps.maximumf _ _ reducesTo_S16x4096_S16_d1 hR h_S_, val_main_cst_9_apply,
    Ideal.ofBits_def, Cert.Consts.ofBits_neg_inf]
  have hc : (val_main_v34 (F := Ideal) x0 x1 ∘ hR.lift i) = fun _ => ((1 / 4096 : ℝ) : EReal) :=
    funext fun k => v34_eq x0 x1 h0 h1 _
  rw [hc]
  exact fold_max_const _ ⟨⟨0, by decide⟩, Finset.mem_univ _⟩ _

theorem v37_eq (h0 : ∀ j, IsReal (x0 j)) (h1 : ∀ j, IsReal (x1 j)) (i : S16.Idx) : val_main_v37 (F := Ideal) x0 x1 i = ((1 / 4096 : ℝ) : EReal) := by
  rw [val_main_v37_apply, Ideal.maximumf_def, val_main_v36_apply, val_main_cst_10_apply, Ideal.ofBits_def,
    Cert.Consts.ofBits_neg_inf, max_bot_left]
  exact v35_eq x0 x1 h0 h1 _

/-- Every exponential of the second softmax is `exp (c - c)` at the constant `c = 1/4096`. -/
theorem v41_eq (h0 : ∀ j, IsReal (x0 j)) (h1 : ∀ j, IsReal (x1 j)) (i : S16x4096.Idx) :
    val_main_v41 (F := Ideal) x0 x1 i = Ideal.exp (((1 / 4096 : ℝ) : EReal) - ((1 / 4096 : ℝ) : EReal)) := by
  rw [val_main_v41_apply, Ideal.hostUnary_exp_def, val_main_v40_apply, Ideal.subf_def, v34_eq x0 x1 h0 h1, val_main_v39_apply,
    val_main_v38_apply, v37_eq x0 x1 h0 h1]

/-- Every entry of the second softmax is `1/4096`. -/
theorem v45_eq (h0 : ∀ j, IsReal (x0 j)) (h1 : ∀ j, IsReal (x1 j)) (i : S16x4096.Idx) : val_main_v45 (F := Ideal) x0 x1 i = ((1 / 4096 : ℝ) : EReal) := by
  rw [val_main_v45_apply, Ideal.hostDivf_def, v41_eq x0 x1 h0 h1, val_main_v44_apply, val_main_v43_apply, val_main_v42_apply,
    val_main_cst_11_apply, Ideal.ofBits_def, Ideal.ofBits_zero_f32,
    Finset.sum_congr rfl fun k _ => v41_eq x0 x1 h0 h1 (idx_main_v42 (idx_main_v43 (idx_main_v44 i)) k)]
  have e := softmax_const 4096 (by norm_num) (1 / 4096)
  rw [e]; norm_num

/-- THE WEIGHT: one plus that, the value of the pattern `0x3F800800`. -/
theorem v47_eq (h0 : ∀ j, IsReal (x0 j)) (h1 : ∀ j, IsReal (x1 j)) (i : S16x4096.Idx) : val_main_v47 (F := Ideal) x0 x1 i = Ideal.ofBits .f32 0x3F800800#32 := by
  rw [val_main_v47_apply, Ideal.addf_def, v45_eq x0 x1 h0 h1, val_main_v46_apply, val_main_cst_12_apply, Ideal.ofBits_def,
    Cert.Consts.ofBits_one, Cert.Consts.ofBits_factor, ← EReal.coe_add]
  norm_num

end Cert.ReferenceIdeal.Weight

end
-- ==== Proof.RefValue.lean ====
/-
  The reference's two results as one function of its inputs.

  Each result is its input reshaped to [16, 64, 4096], multiplied entry by entry by the weight spread over the
  channels, and reshaped back. The weight is the constant `0x3F800800` at every (b, n), so each result is the input
  reshaped, scaled by that constant, reshaped back.
-/
import proofs.«104576_j89653147337302_2_alg».proof.Proof.Gen.ReferenceIdeal.Read
import proofs.«104576_j89653147337302_2_alg».proof.Proof.LibSoftmaxUnit
import proofs.«104576_j89653147337302_2_alg».proof.Proof.Consts
import proofs.«104576_j89653147337302_2_alg».proof.Proof.RefWeight

noncomputable section

namespace Cert.ReferenceIdeal.Weight

open Cert.ReferenceIdeal Cert.ReferenceIdeal.Gen Cert.ReferenceIdeal.Read Idealize.ShloMosaic Idealize.ShloMosaic.SoftmaxUnit

variable (x0 x1 : Arr)

/-- An array reshaped to [16, 64, 4096], scaled by the factor, reshaped back to [16, 64, 64, 64]. -/
def scaledBack (x : Arr) : Arr :=
  shapeCast S16x64x64x64
    (fun i => FloatOps.mulf (F := Ideal) (φ := .f32) (shapeCast S16x64x4096 x shapeCasts_S16x64x64x64_S16x64x4096 i) (Scalar.ofBits (F := Ideal) .f32 0x3F800800#32))
    shapeCasts_S16x64x4096_S16x64x64x64

/-- The first result is the first input scaled. -/
theorem v51_eq (h0 : ∀ j, IsReal (x0 j)) (h1 : ∀ j, IsReal (x1 j)) : val_main_v51 (F := Ideal) x0 x1 = scaledBack x0 := by
  unfold val_main_v51 scaledBack
  refine congrArg (fun v => shapeCast S16x64x64x64 v shapeCasts_S16x64x4096_S16x64x64x64) (funext fun i => ?_)
  rw [val_main_v50_apply, val_main_v49_apply, val_main_v48_apply, v47_eq x0 x1 h0 h1]
  rfl

/-- The second result is the second input scaled. -/
theorem v55_eq (h0 : ∀ j, IsReal (x0 j)) (h1 : ∀ j, IsReal (x1 j)) : val_main_v55 (F := Ideal) x0 x1 = scaledBack x1 := by
  unfold val_main_v55 scaledBack
  refine congrArg (fun v => shapeCast S16x64x64x64 v shapeCasts_S16x64x4096_S16x64x64x64) (funext fun i => ?_)
  rw [val_main_v54_apply, val_main_v53_apply, val_main_v52_apply, v47_eq x0 x1 h0 h1]
  rfl

end Cert.ReferenceIdeal.Weight

end
-- ==== Proof.lean ====
/-
  The kernel multiplies both inputs by the literal `1 + 1/4096`; the reference multiplies them by
  `softmax_n (mean_m (softmax_m (50 · ⟨v̂_n, t̂_m⟩))) + 1`. At the exact extended reals the two agree on finite inputs.

  Why. For finite inputs the normalized features are real numbers (the norm is floored at a positive constant, so no
  division by zero and no infinity arises), hence so are the similarities and, after subtracting the row maximum, the
  exponents; their exponentials are positive reals. A row of positive reals divided by its own sum adds up to exactly
  one, so the mean of every row of the first softmax over its 4096 columns is exactly `1/4096`, whatever the inputs
  were. The second softmax therefore sees a constant row of 4096 entries: its maximum is that constant, every shifted
  score is `0`, every exponential `1`, the sum `4096`, every entry `1/4096`. Adding one gives `4097/4096`, which is
  exactly the value of the kernel's literal `0x3F800800 = 1 + 2^-12`. Distributivity and cancellation are used only on
  real numbers: this is where the finiteness precondition enters.

  The kernel side: the region's eight grid points each scale two rows of the reshaped inputs, the blocks fill the
  output arrays, and the reshapes around the region are the reference's own. Both programs end with each result at
  `reshape⁻¹ (reshape x · (1 + 1/4096))`.

  The ideal pass rewrote nothing in the kernel, so the preservation claim has no conjunct.
-/
import proofs.«104576_j89653147337302_2_alg».proof.Defs
import proofs.«104576_j89653147337302_2_alg».proof.Proof.Gen.Kernel
import proofs.«104576_j89653147337302_2_alg».proof.Proof.Gen.Kernel.Skeleton
import proofs.«104576_j89653147337302_2_alg».proof.Proof.Gen.Kernel.Launch
import proofs.«104576_j89653147337302_2_alg».proof.Proof.Gen.Kernel.Points
import proofs.«104576_j89653147337302_2_alg».proof.Proof.Gen.Kernel.Frame
import proofs.«104576_j89653147337302_2_alg».proof.Proof.Gen.KernelIdeal
import proofs.«104576_j89653147337302_2_alg».proof.Proof.Gen.KernelIdeal.Skeleton
import proofs.«104576_j89653147337302_2_alg».proof.Proof.Gen.KernelIdeal.Launch
import proofs.«104576_j89653147337302_2_alg».proof.Proof.Gen.KernelIdeal.Points
import proofs.«104576_j89653147337302_2_alg».proof.Proof.Gen.KernelIdeal.Frame
import proofs.«104576_j89653147337302_2_alg».proof.Proof.Gen.ReferenceIdeal
import proofs.«104576_j89653147337302_2_alg».proof.Proof.Gen.Pre_finite_inputs
import proofs.«104576_j89653147337302_2_alg».proof.Proof.Gen.ReferenceIdeal.Run
import proofs.«104576_j89653147337302_2_alg».proof.Proof.Gen.ReferenceIdeal.Read
import proofs.«104576_j89653147337302_2_alg».proof.Proof.Finite
import proofs.«104576_j89653147337302_2_alg».proof.Proof.KernelTail
import proofs.«104576_j89653147337302_2_alg».proof.Proof.RefValue
import Idealize.ShloMosaic.Adequacy
import Idealize.ShloMosaic.Init

noncomputable section

namespace Cert.Proof

open Idealize.ShloMosaic Idealize.SL.Sem

/-- The three frames: the two kernels' are generated whole; the reference's is its generated run with the results
    dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with each result at its input reshaped, scaled by `1 + 1/4096` and reshaped back: the kernel by
    its run read whole, the reference because under the precondition its weight is that constant. -/
theorem algebraic : Cert.algebraic_KernelIdeal_ReferenceIdeal := by
  intro m ρ m' ρ' hpre hagree
  refine ⟨_, _, Cert.KernelIdeal.Scaled.run (F := Ideal) m ρ, ?_⟩
  refine (θ_run Cert.ReferenceIdeal.defs _ _).mono (fun _ h c => ?_) (Cert.ReferenceIdeal.Value.run (F := Ideal) m' ρ')
  obtain ⟨r0, r1⟩ := Cert.Finite.real_of_pre _ _ (hpre c)
  refine ⟨(h c).1.trans ?_, (h c).2.1.trans ?_, (h c).2.2⟩
  · rw [Cert.ReferenceIdeal.Read.val_main_v51_eq, (hagree c).1, (hagree c).2, Cert.ReferenceIdeal.Weight.v51_eq _ _ r0 r1]
    rfl
  · rw [Cert.ReferenceIdeal.Read.val_main_v55_eq, (hagree c).1, (hagree c).2, Cert.ReferenceIdeal.Weight.v55_eq _ _ r0 r1]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
